-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S4096x4096 : Shape := ⟨2, ![4096, 4096]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel

variable [Facts]

def fn {F : FTy → Type} [FloatOps F] (main_arg0 : FVec F S4096x768 .f32) (main_arg1 : FVec F S4096x768 .f32) (main_arg2 : IVec S4096x4096 32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  main_v8
-- ==== Kernel.lean ====
abbrev S4096x768 : Shape := ⟨2, ![4096, 768]⟩
abbrev S4096x4096 : Shape := ⟨2, ![4096, 4096]⟩
abbrev S8x1x1 : Shape := ⟨3, ![8, 1, 1]⟩
abbrev S512x768 : Shape := ⟨2, ![512, 768]⟩
abbrev S512x512 : Shape := ⟨2, ![512, 512]⟩
abbrev S1x1x1 : Shape := ⟨3, ![1, 1, 1]⟩
abbrev S1x1 : Shape := ⟨2, ![1, 1]⟩
abbrev S512 : Shape := ⟨1, ![512]⟩
abbrev S512x1 : Shape := ⟨2, ![512, 1]⟩
abbrev S768x512 : Shape := ⟨2, ![768, 512]⟩
abbrev S1x512 : Shape := ⟨2, ![1, 512]⟩
abbrev S1 : Shape := ⟨1, ![1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x4096, .i32⟩
  | .hbm, ⟨3, _⟩ => ⟨S8x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x768, .f32⟩
  | .local _ .vmem, ⟨1, _⟩ => ⟨S512x768, .f32⟩
  | .local _ .vmem, ⟨2, _⟩ => ⟨S4096x768, .f32⟩
  | .local _ .vmem, ⟨3, _⟩ => ⟨S512x512, .i32⟩
  | .local _ .vmem, ⟨4, _⟩ => ⟨S512x512, .i32⟩
  | .local _ .vmem, ⟨5, _⟩ => ⟨S1x1x1, .f32⟩
  | .local _ .vmem, ⟨6, _⟩ => ⟨S1x1x1, .f32⟩
  | .local _ .vmem, ⟨7, _⟩ => ⟨S1x1, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v4 : BitVec 32 := Scalar.muli arg1 c512_i32
  v4
def k0_off1 (i : grid0.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v6 : Index := Scalar.indexCast v5
  let c0_2 : Index := 0#32
  ![v6.toNat, 0]
def k0_cond2 (i : grid0.Coords) : BitVec 1 :=
  let arg1 : BitVec 32 := BitVec.ofNat 32 (i 1).val
  let c7_i32 : BitVec 32 := 7#32
  let v63 : BitVec 1 := Scalar.cmpi .eq arg1 c7_i32
  let v64 : BitVec 32 := Scalar.extui v63
  let c0_i32_22 : BitVec 32 := 0#32
  let v65 : BitVec 1 := Scalar.cmpi .ne v64 c0_i32_22
  v65

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x768_S512x768_0_0 : ∀ a, (![0, 0] : Fin 2 → Nat) a + S512x768.size a ≤ S512x768.size a
  h_S512x768 : 0 < S512x768.numel
  inb_S512x512_S512x512_0_0 : ∀ a, (![0, 0] : Fin 2 → Nat) a + S512x512.size a ≤ S512x512.size a
  h_S512x512 : 0 < S512x512.numel
  reduces_S512x768_S512 : S512x768.Reduces [1] S512
  shapeCasts_S512_S512x1 : S512.ShapeCasts S512x1
  bitsLt_bf16_f32 : FTy.bits .bf16 < FTy.bits .f32
  transposes_S512x768_p1_0_S768x512 : S512x768.Transposes [1, 0] S768x512
  transposes_S512x1_p1_0_S1x512 : S512x1.Transposes [1, 0] S1x512
  broadcasts_S512x1_S512x512 : S512x1.Broadcasts S512x512
  broadcasts_S1x512_S512x512 : S1x512.Broadcasts S512x512
  reduces_S512x512_S512 : S512x512.Reduces [1] S512
  reduces_S512x1_S1 : S512x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S8x1x1_S_d0_1_2 : S8x1x1.ReducesTo [0, 1, 2] S_
  h_S_ : 0 < S_.numel
  dot_S512x768_S768x512_S512x512_1_0_0_1_n_n_wf : DotDims.WF S512x768 S768x512 S512x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x768.size a ≤ S4096x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .f32 = 32 ∨ (Rect.block (s := S4096x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x768.size a ≤ S4096x768.size a
  hwx0_1 : ∀ i : grid0.Coords, EltTy.bits .f32 = 32 ∨ (Rect.block (s := S4096x768) S4096x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .i32 = 32 ∨ (Rect.block (s := S4096x4096) S512x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S8x1x1.size a
  hwx0_3 : ∀ i : grid0.Coords, EltTy.bits .f32 = 32 ∨ (Rect.block (s := S8x1x1) S1x1x1.size (cc0_transform_3 i) (hinb0_3 i)).WholeWords (EltTy.packing .f32)

variable [Facts₀]

def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf

abbrev win0_0 : Pipeline.Window sig grid0 :=
  Pipeline.Window.ofSpec (Memref.whole main_arg0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x768 : Shape := ⟨2, ![4096, 768]⟩
abbrev S4096x4096 : Shape := ⟨2, ![4096, 4096]⟩
abbrev S_ : Shape := ⟨0, ![]⟩
abbrev S4096 : Shape := ⟨1, ![4096]⟩
abbrev S768x4096 : Shape := ⟨2, ![768, 4096]⟩
abbrev S4096x1 : Shape := ⟨2, ![4096, 1]⟩
abbrev S1x4096 : Shape := ⟨2, ![1, 4096]⟩

abbrev nBuf : Space → Nat
  | .hbm => 59
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x4096, .i32⟩
  | .hbm, ⟨3, _⟩ => ⟨S4096x768, .f32⟩
  | .hbm, ⟨4, _⟩ => ⟨S_, .f32⟩
  | .hbm, ⟨5, _⟩ => ⟨S4096, .f32⟩
  | .hbm, ⟨6, _⟩ => ⟨S4096x768, .f32⟩
  | .hbm, ⟨7, _⟩ => ⟨S_, .f32⟩
  | .hbm, ⟨8, _⟩ => ⟨S4096, .f32⟩
  | .hbm, ⟨9, _⟩ => ⟨S768x4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x1, .f32⟩
  | .hbm, ⟨25, _⟩ => ⟨S1x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  reducesTo_S4096x768_S4096_d1 : S4096x768.ReducesTo [1] S4096
  h_S_ : 0 < S_.numel
  transposes_S4096x768_S768x4096_1_0 : S4096x768.Transposes [1, 0] S768x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x768_S768x4096_S4096x4096_1_0_0_1_n_n_wf : DotDims.WF S4096x768 S768x4096 S4096x4096 [1] [0] [0] [1] [] []

variable [Facts₀]

def dot_S4096x768_S768x4096_S4096x4096_1_0_0_1_n_n : DotDims S4096x768 S768x4096 S4096x4096 where
  lhsContracting := [1]
  rhsContracting := [0]
  lhsNonContracting := [0]
  rhsNonContracting := [1]
  lhsBatch := []
  rhsBatch := []
  wf := dot_S4096x768_S768x4096_S4096x4096_1_0_0_1_n_n_wf

class Facts : Prop extends Facts₀ where

variable [Facts]
-- ==== Proof.Pieces.lean ====
/-
  What one grid point leaves behind, as values.

  The body keeps a one-element accumulator in scratch memory. At every point it computes the 512 x 512 tile of
  pair losses from the point's image rows, the 512 text rows it loads at the offset the column coordinate names,
  and the point's label tile, sums the tile, and adds the sum to the accumulator (`step`). At the first point of a row
  of tiles the accumulator is first reset to zero; at the last one the accumulator is also copied to the output block.
  Here each of the body's three control cases is read back as that one function of what the accumulator held.
-/
import proofs.«124694_j69415261438629_2_alg».proof.Defs
import proofs.«124694_j69415261438629_2_alg».proof.Proof.Gen.KernelIdeal.Frame

import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 512 text rows the body loads at a point: rows `512 j …` of the whole text matrix, `j` the column coordinate. -/
abbrev txtRows (i : grid0.Coords) (x1 : Vec F S4096x768 .f32) : Vec F S512x768 .f32 :=
  View.ld x1 (Rect.unit (s := S4096x768) (k0_off1 i) S512x768.size (k0_off1_inb i))

/-- One point's update of the accumulator: the tile's summed loss added to what it held. -/
def step (i : grid0.Coords) (x0 : Vec F S512x768 .f32) (x1 : Vec F S4096x768 .f32) (x2 : Vec F S512x512 .i32) (acc : Vec F S1x1 .f32) : Vec F S1x1 .f32 :=
  k0_pay1 (k0_pay4 x2) (k0_pay5 x0 (txtRows i x1)) (Scalar.ofBits .f32 0x00000000#32) acc

/-- The first point of a row of tiles: the accumulator is reset, then updated. -/
theorem soutA (c : Dev nD) (i : grid0.Coords) (arg2 : Memref sig .tc .vmem S512x768 .f32) (harg2 : arg2.IsWhole) (arg3 : Memref sig .tc .vmem S4096x768 .f32) (harg3 : arg3.IsWhole) (arg4 : Memref sig .tc .vmem S512x512 .i32) (harg4 : arg4.IsWhole) (arg5 : Memref sig .tc .vmem S1x1x1 .f32) (harg5 : arg5.IsWhole) (arg6 : Memref sig .tc .vmem S1x1 .f32) (harg6 : arg6.IsWhole) (hc0 : cond0_0 i) (hc1 : ¬cond0_1 i) (x0 : Vec F S512x768 .f32) (x1 : Vec F S4096x768 .f32) (x2 : Vec F S512x512 .i32) :
    sout0_A_0 c i arg2 harg2 arg3 harg3 arg4 harg4 arg5 harg5 arg6 harg6 hc0 hc1 x0 x1 x2 = step i x0 x1 x2 k0_pay3 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg6.read_unread,
    View.ld_unit_zero (S := S512x768) hz2, View.ld_unit_zero (S := S512x512) hz2, View.ld_unit_zero (S := S1x1) hz2]
  rfl

/-- A middle point: the accumulator is updated. -/
theorem soutB (c : Dev nD) (i : grid0.Coords) (arg2 : Memref sig .tc .vmem S512x768 .f32) (harg2 : arg2.IsWhole) (arg3 : Memref sig .tc .vmem S4096x768 .f32) (harg3 : arg3.IsWhole) (arg4 : Memref sig .tc .vmem S512x512 .i32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : ¬cond0_1 i) (x0 : Vec F S512x768 .f32) (x1 : Vec F S4096x768 .f32) (x2 : Vec F S512x512 .i32) (xs0 : Vec F S1x1 .f32) :
    sout0_B_0 c i arg2 harg2 arg3 harg3 arg4 harg4 arg5 harg5 arg6 harg6 hc0 hc1 x0 x1 x2 xs0 = step i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S1x1) hz2]
  simp only [View.readAt_eq_ld, harg2.read_unread, harg3.read_unread, harg4.read_unread, harg6.read_unread,
    View.ld_unit_zero (S := S512x768) hz2, View.ld_unit_zero (S := S512x512) hz2, View.ld_unit_zero (S := S1x1) hz2]
  rfl

/-- The last point of a row of tiles: the accumulator is updated, -/
theorem soutC (c : Dev nD) (i : grid0.Coords) (arg2 : Memref sig .tc .vmem S512x768 .f32) (harg2 : arg2.IsWhole) (arg3 : Memref sig .tc .vmem S4096x768 .f32) (harg3 : arg3.IsWhole) (arg4 : Memref sig .tc .vmem S512x512 .i32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : cond0_1 i) (x0 : Vec F S512x768 .f32) (x1 : Vec F S4096x768 .f32) (x2 : Vec F S512x512 .i32) (xs0 : Vec F S1x1 .f32) :
    sout0_C_0 c i arg2 harg2 arg3 harg3 arg4 harg4 arg5 harg5 arg6 harg6 hc0 hc1 x0 x1 x2 xs0 = step i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S1x1) hz2]
  simp only [View.readAt_eq_ld, harg2.read_unread, harg3.read_unread, harg4.read_unread, harg6.read_unread,
    View.ld_unit_zero (S := S512x768) hz2, View.ld_unit_zero (S := S512x512) hz2, View.ld_unit_zero (S := S1x1) hz2]
  rfl

/-- and the output block receives the updated accumulator. -/
theorem outC (c : Dev nD) (i : grid0.Coords) (arg2 : Memref sig .tc .vmem S512x768 .f32) (harg2 : arg2.IsWhole) (arg3 : Memref sig .tc .vmem S4096x768 .f32) (harg3 : arg3.IsWhole) (arg4 : Memref sig .tc .vmem S512x512 .i32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : cond0_1 i) (x0 : Vec F S512x768 .f32) (x1 : Vec F S4096x768 .f32) (x2 : Vec F S512x512 .i32) (xs0 : Vec F S1x1 .f32) :
    out0_C_3 c i arg2 harg2 arg3 harg3 arg4 harg4 arg5 harg5 arg6 harg6 hc0 hc1 x0 x1 x2 xs0 = k0_pay2 (step i x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1x1x1) hz3, View.readCov_unit_zero (S := S1x1) _ hz2]
  simp only [View.readAt_eq_ld, harg2.read_unread, harg3.read_unread, harg4.read_unread, harg6.read_unread,
    View.ld_unit_zero (S := S512x768) hz2, View.ld_unit_zero (S := S512x512) hz2, View.ld_unit_zero (S := S1x1) hz2]
  rfl

end Cert.KernelIdeal.Pieces

end
-- ==== Proof.LibMatrixAtIndex.lean ====
/-
  Vector operations of a graph-convolution layer body read at one index, at the exact (extended-real) instance and
  over arbitrary extents: a row sum and a row maximum of a matrix; the column shapes a keep-dimension reduction
  passes through; a matrix product into a zero accumulator for each of the three ways its two operands are
  contracted (rows against columns, rows against rows, columns against columns); the select that puts one where a
  shifted row number meets a column number; a row-wise log-softmax; the literals 1 and -∞.
-/
import Idealize.ShloMosaic.PureOps
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx

/-! ## A reduction along the rows of a matrix -/

section Rows
variable {a b : Nat} {φ : FTy}

/-- The index over row `r` with column `k` inserted is `(r, k)`. -/
theorem lift_row (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- A sum along the rows, at row `r`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A maximum along the rows, at row `r`: the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (Finset.fold max (Ideal.ofBits φ acc) · Finset.univ) (funext fun k => congrArg src (lift_row h r k)))

end Rows

/-! ## Column shapes -/

section Columns
variable {α : Type} {a b : Nat}

/-- A vector cast to a one-column matrix reads, at `(i, u)`, the vector at `i`. -/
theorem shapeCast_col_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over `b` columns reads, at `(p, c)`, the column at `p`. -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A matrix product into a zero accumulator, for each way the two operands are contracted -/

section Dot
variable {sl sr so : Shape} (d : DotDims sl sr so)

/-- On a kept axis of the left operand (no batch axes) the operand index is the result index's coordinate at
    that axis's position among the kept axes. -/
theorem lhsIdx_val_kept (hb : d.lhsBatch = []) {al : Fin sl.rank} (hn : al ∈ d.lhsNonContracting) {p : Nat}
    (hp : d.lhsNonContracting.idxOf al = p) (hpo : p < so.rank) (j : so.Idx) (q : d.contr.Idx) :
    (d.lhsIdx j q al).val = (j ⟨p, hpo⟩).val := by
  have hnb : al ∉ d.lhsBatch := by rw [hb]; exact List.not_mem_nil
  unfold DotDims.lhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hb, hp]; simp)

/-- On a kept axis of the right operand (no batch axes) the operand index is the result index's coordinate at
    that axis's position after the left operand's kept axes. -/
theorem rhsIdx_val_kept (hlb : d.lhsBatch = []) (hb : d.rhsBatch = []) {ar : Fin sr.rank} (hn : ar ∈ d.rhsNonContracting)
    {p : Nat} (hp : d.lhsNonContracting.length + d.rhsNonContracting.idxOf ar = p) (hpo : p < so.rank) (j : so.Idx)
    (q : d.contr.Idx) : (d.rhsIdx j q ar).val = (j ⟨p, hpo⟩).val := by
  have hnb : ar ∉ d.rhsBatch := by rw [hb]; exact List.not_mem_nil
  unfold DotDims.rhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hlb, ← hp]; simp)

end Dot

section Products
variable {m k n : Nat}

/-- Rows of the left operand against columns of the right: `(A·B)(i,c) = Σ_f A(i,f)·B(f,c)`. -/
theorem matmul_rowcol_apply (d : DotDims ⟨2, ![m, k]⟩ ⟨2, ![k, n]⟩ ⟨2, ![m, n]⟩)
    (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = k) (prec : Option ContractPrecision)
    (A : FVec Ideal ⟨2, ![m, k]⟩ .f32) (B : FVec Ideal ⟨2, ![k, n]⟩ .f32) (i : Fin m) (c : Fin n) :
    matmul d prec A B (constant (F := Ideal) ⟨2, ![m, n]⟩ .f32 0x00000000#32) (ix2 i c)
      = ∑ f : Fin k, A (ix2 i f) * B (ix2 f c) := by
  show FloatOps.matmul d prec A B (constant (F := Ideal) ⟨2, ![m, n]⟩ .f32 0x00000000#32) (ix2 i c) = _
  rw [Ideal.matmul_constant_zero_apply, ← Equiv.sum_comp (contrEquiv1 d k hr hs).symm]
  refine Finset.sum_congr rfl fun f _ => ?_
  have hk := contrEquiv1_symm_val d k hr hs f
  have el : d.lhsIdx (ix2 i c) ((contrEquiv1 d k hr hs).symm f) = ix2 i f := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i c) ((contrEquiv1 d k hr hs).symm f) = ix2 f c := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

/-- Rows of the left operand against rows of the right: `Σ_e A(i,e)·B(j,e)`. -/
theorem matmul_rowrow_apply (d : DotDims ⟨2, ![m, k]⟩ ⟨2, ![n, k]⟩ ⟨2, ![m, n]⟩)
    (hlb : d.lhsBatch = []) (hrb : d.rhsBatch = []) (hln : d.lhsNonContracting = [0]) (hrn : d.rhsNonContracting = [0])
    (hlc : d.lhsContracting = [1]) (hrc : d.rhsContracting = [1])
    (hr : d.contr.rank = 1) (hs : d.contr.size ⟨0, by omega⟩ = k) (prec : Option ContractPrecision)
    (A : FVec Ideal ⟨2, ![m, k]⟩ .f32) (B : FVec Ideal ⟨2, ![n, k]⟩ .f32) (i : Fin m) (j : Fin n) :
    matmul d prec A B (constant (F := Ideal) ⟨2, ![m, n]⟩ .f32 0x00000000#32) (ix2 i j)
      = ∑ e : Fin k, A (ix2 i e) * B (ix2 j e) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun e _ => ?_
  have hk := contrEquiv1_symm_val d k hr hs e
  have el : d.lhsIdx (ix2 i j) ((contrEquiv1 d k hr hs).symm e) = ix2 i e := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i j) ((contrEquiv1 d k hr hs).symm e) = ix2 j e := funext fun ax => Fin.ext (by
    match ax with
    | ⟨0, _⟩ =>
      exact rhsIdx_val_kept d hlb hrb (ar := 0) (by rw [hrn]; exact List.mem_singleton.mpr rfl) (p := 1)
        (by rw [hln, hrn]; rfl) Nat.one_lt_two _ _
    | ⟨1, _⟩ => exact (d.rhsIdx_val_of_single hrc _ _).trans hk)
  rw [el, er]

/-- Columns of the left operand against columns of the right: `Σ_v A(v,i)·B(v,j)`. -/
theorem matmul_colcol_apply (d : DotDims ⟨2, ![k, m]⟩ ⟨2, ![k, n]⟩ ⟨2, ![m, n]⟩)
    (hlb : d.lhsBatch = []) (hrb : d.rhsBatch = []) (hln : d.lhsNonContracting = [1]) (hrn : d.rhsNonContracting = [1])
    (hlc : d.lhsContracting = [0]) (hrc : d.rhsContracting = [0])
    (hr : d.contr.rank = 1) (hs : d.contr.size ⟨0, by omega⟩ = k) (prec : Option ContractPrecision)
    (A : FVec Ideal ⟨2, ![k, m]⟩ .f32) (B : FVec Ideal ⟨2, ![k, n]⟩ .f32) (i : Fin m) (j : Fin n) :
    matmul d prec A B (constant (F := Ideal) ⟨2, ![m, n]⟩ .f32 0x00000000#32) (ix2 i j)
      = ∑ v : Fin k, A (ix2 v i) * B (ix2 v j) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun v _ => ?_
  have hk := contrEquiv1_symm_val d k hr hs v
  have el : d.lhsIdx (ix2 i j) ((contrEquiv1 d k hr hs).symm v) = ix2 v i := funext fun ax => Fin.ext (by
    match ax with
    | ⟨0, _⟩ => exact (d.lhsIdx_val_of_single hlc _ _).trans hk
    | ⟨1, _⟩ =>
      exact lhsIdx_val_kept d hlb (al := 1) (by rw [hln]; exact List.mem_singleton.mpr rfl) (p := 0)
        (by rw [hln]; rfl) Nat.zero_lt_two _ _)
  have er : d.rhsIdx (ix2 i j) ((contrEquiv1 d k hr hs).symm v) = ix2 v j := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

end Products

/-! ## The diagonal test and the float literals -/

section Words

/-- Row `g·256 + r` against column `j`, compared as 32-bit words that do not wrap: the select is the `if`. -/
theorem select_shifted_eq {α : Type} (g r j : Nat) (hrow : g * 256 + r < 2 ^ 32) (hj : j < 2 ^ 32) (x y : α) :
    Scalar.select (IntOp.cmpi .eq (IntOp.addi (Scalar.muli (BitVec.ofNat 32 g) 256#32) (BitVec.ofNat 32 r))
        (BitVec.ofNat 32 j)) x y = if g * 256 + r = j then x else y := by
  have h1 : IntOp.addi (Scalar.muli (BitVec.ofNat 32 g) 256#32) (BitVec.ofNat 32 r) = BitVec.ofNat 32 (g * 256 + r) := by
    show BitVec.ofNat 32 g * BitVec.ofNat 32 256 + BitVec.ofNat 32 r = _
    rw [BitVec.ofNat_add, BitVec.ofNat_mul]
  rw [h1]
  have h2 : IntOp.cmpi .eq (BitVec.ofNat 32 (g * 256 + r)) (BitVec.ofNat 32 j) = (1 : BitVec 1) ↔ g * 256 + r = j := by
    show BitVec.ofBool (BitVec.ofNat 32 (g * 256 + r) == BitVec.ofNat 32 j) = (1 : BitVec 1) ↔ _
    constructor
    · intro h
      have hb : (BitVec.ofNat 32 (g * 256 + r) == BitVec.ofNat 32 j) = true := by
        cases hc : (BitVec.ofNat 32 (g * 256 + r) == BitVec.ofNat 32 j)
        · rw [hc] at h; exact absurd h (by decide)
        · rfl
      have he := congrArg BitVec.toNat (eq_of_beq hb)
      rw [BitVec.toNat_ofNat, BitVec.toNat_ofNat, Nat.mod_eq_of_lt hrow, Nat.mod_eq_of_lt hj] at he
      exact he
    · intro h
      rw [h, beq_self_eq_true]
      rfl
  unfold Scalar.select
  by_cases h : g * 256 + r = j
  · rw [if_pos h, if_pos (h2.mpr h)]
  · rw [if_neg h, if_neg (mt h2.mp h)]

/-- The word `0x3F800000` is the number one. -/
theorem ofBits_one_f32 : Ideal.ofBits .f32 0x3F800000#32 = 1 := IdealRules.sign_bit.ideal_onePat .f32

/-- The word `0xFF800000` is `-∞`. -/
theorem ofBits_negInf_f32 : Ideal.ofBits .f32 0xFF800000#32 = ⊥ := by
  simp [Ideal.ofBits, Ideal.ieee]

end Words

/-! ## One on the shifted diagonal, and a row-wise log-softmax -/

section Diagonal
variable {a b : Nat}

/-- The select that puts one where row `g·256 + r` meets column `j` and keeps `X` elsewhere, read at `(r, j)`. -/
theorem select_diag_apply (g : Nat) (h0 : (⟨2, ![a, b]⟩ : Shape).Iotas .tc 32 [0])
    (h1 : (⟨2, ![a, b]⟩ : Shape).Iotas .tc 32 [1]) (X : FVec Ideal ⟨2, ![a, b]⟩ .f32) (r : Fin a) (j : Fin b)
    (hrow : g * 256 + r.val < 2 ^ 32) (hj : j.val < 2 ^ 32) :
    select (cmpi .eq (addi (broadcast ⟨2, ![a, b]⟩ (Scalar.muli (BitVec.ofNat 32 g) 256#32))
          (iota .tc ⟨2, ![a, b]⟩ 32 [0] h0)) (iota .tc ⟨2, ![a, b]⟩ 32 [1] h1))
        (broadcast ⟨2, ![a, b]⟩ (Scalar.ofBits (F := Ideal) .f32 0x3F800000#32)) X (ix2 r j)
      = if g * 256 + r.val = j.val then (1 : EReal) else X (ix2 r j) := by
  show Scalar.select (IntOp.cmpi .eq (IntOp.addi (Scalar.muli (BitVec.ofNat 32 g) 256#32)
        (iota .tc ⟨2, ![a, b]⟩ 32 [0] h0 (ix2 r j))) (iota .tc ⟨2, ![a, b]⟩ 32 [1] h1 (ix2 r j)))
      (Ideal.ofBits .f32 0x3F800000#32) (X (ix2 r j)) = _
  rw [iota_single_apply, iota_single_apply, ofBits_one_f32]
  exact select_shifted_eq g r.val j.val hrow hj 1 (X (ix2 r j))

/-- The row-wise log-softmax as the layer body spells it — the row maximum kept as a column, subtracted, the
    exponentials summed along the row, the logarithm of the sum kept as a column and subtracted — read at `(r, c)`:
    `(Y(r,c) − M) − log Σ_k exp (Y(r,k) − M)` with `M` the maximum of row `r` from `-∞`. -/
theorem logSoftmax_rows_apply (Y : FVec Ideal ⟨2, ![a, b]⟩ .f32)
    (hR : (⟨2, ![a, b]⟩ : Shape).Reduces [1] ⟨1, ![a]⟩) (hC : (⟨1, ![a]⟩ : Shape).ShapeCasts ⟨2, ![a, 1]⟩)
    (hB : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (c : Fin b)
    (x : Fin b → EReal) (hx : ∀ k, Y (ix2 r k) = x k) :
    subf (subf Y (broadcastTo ⟨2, ![a, b]⟩ (shapeCast ⟨2, ![a, 1]⟩
            (multiReduction .maximumf [1] ⟨1, ![a]⟩ Y 0xFF800000#32 hR hφ hmax) hC) hB))
        (broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB) (ix2 r c)
      = (x c - (Finset.univ : Finset (Fin b)).fold max ⊥ x)
          - Ideal.log (∑ k : Fin b, Ideal.exp (x k - (Finset.univ : Finset (Fin b)).fold max ⊥ x)) := by
  have hx' : (fun k => Y (ix2 r k)) = x := funext hx
  have hM : ∀ k : Fin b, broadcastTo ⟨2, ![a, b]⟩ (shapeCast ⟨2, ![a, 1]⟩
        (multiReduction .maximumf [1] ⟨1, ![a]⟩ Y 0xFF800000#32 hR hφ hmax) hC) hB (ix2 r k)
      = (Finset.univ : Finset (Fin b)).fold max ⊥ x := fun k => by
    rw [broadcastTo_col_apply, shapeCast_col_apply, rowMax_apply, ofBits_negInf_f32, hx']
  show (Y (ix2 r c) - broadcastTo ⟨2, ![a, b]⟩ (shapeCast ⟨2, ![a, 1]⟩
          (multiReduction .maximumf [1] ⟨1, ![a]⟩ Y 0xFF800000#32 hR hφ hmax) hC) hB (ix2 r c))
        - broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB (ix2 r c) = _
  rw [hM c, broadcastTo_col_apply, hx c]
  show _ - Ideal.log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC (ix2 r (0 : Fin 1))) = _
  rw [shapeCast_col_apply, rowSum_apply]
  refine congrArg (fun s => _ - Ideal.log s) (Finset.sum_congr rfl fun k _ => ?_)
  show Ideal.exp (Y (ix2 r k) - broadcastTo ⟨2, ![a, b]⟩ (shapeCast ⟨2, ![a, 1]⟩
          (multiReduction .maximumf [1] ⟨1, ![a]⟩ Y 0xFF800000#32 hR hφ hmax) hC) hB (ix2 r k)) = _
  rw [hM k, hx k]

end Diagonal

end Cert.KernelIdeal.Pay

end
-- ==== Proof.LibFiniteSums.lean ====
/-
  General lemmas on finite sums, for value proofs on the extended reals. Nothing here mentions a program.

  * `sum_split`     a sum over `Fin N`, `N = m * n`, as the double sum over `a < m`, `b < n` at position `b + n * a`
                    (an array axis cut into `m` blocks of `n`);
  * `sum_comm4`     four nested sums over finite types: the inner two move outside;
  * `sum_mul_coe`   `(∑ f) * x = ∑ (f * x)` on the extended reals for a real `x ≥ 0`, whatever the terms are
                    (infinities of both signs included): a mean's division by a positive count distributes over a sum;
  * `sum_idx1`, `sum_idx3`   a sum over a rank-1 / rank-3 index set of literal extents as the sum over its coordinates
                    (the library's `ValueIdx.sum_idx2` at the two neighbouring ranks).
-/
import Mathlib.Data.EReal.Basic
import Mathlib.Data.EReal.Operations
import Mathlib.Algebra.BigOperators.Fin
import Mathlib.Algebra.BigOperators.Intervals
import Mathlib.Logic.Equiv.Fin.Basic
import Idealize.ShloMosaic.Lib.ValueIdx

noncomputable section

open scoped BigOperators
open Idealize.ShloMosaic Idealize.ShloMosaic.ValueIdx

namespace Cert.LibFiniteSums

/-! ## Re-indexing -/

/-- A sum over `Fin N` with `N = m * n` is the double sum over `a < m`, `b < n` at position `b + n * a`. -/
theorem sum_split {M : Type*} [AddCommMonoid M] (m n N : ℕ) (h : m * n = N) (g : Fin N → M) :
    ∑ x, g x = ∑ a : Fin m, ∑ b : Fin n,
      g ⟨b.val + n * a.val, h ▸ (finProdFinEquiv (a, b)).isLt⟩ := by
  subst h
  rw [← Equiv.sum_comp finProdFinEquiv g, Fintype.sum_prod_type]
  rfl

/-- Four nested sums: the inner two move outside. -/
theorem sum_comm4 {M : Type*} [AddCommMonoid M] {α β γ δ : Type*} [Fintype α] [Fintype β] [Fintype γ] [Fintype δ]
    (X : α → β → γ → δ → M) :
    ∑ a, ∑ b, ∑ c, ∑ d, X a b c d = ∑ c, ∑ d, ∑ a, ∑ b, X a b c d := by
  calc ∑ a, ∑ b, ∑ c, ∑ d, X a b c d
      = ∑ a, ∑ c, ∑ b, ∑ d, X a b c d := Finset.sum_congr rfl fun a _ => Finset.sum_comm
    _ = ∑ c, ∑ a, ∑ b, ∑ d, X a b c d := Finset.sum_comm
    _ = ∑ c, ∑ a, ∑ d, ∑ b, X a b c d :=
        Finset.sum_congr rfl fun c _ => Finset.sum_congr rfl fun a _ => Finset.sum_comm
    _ = ∑ c, ∑ d, ∑ a, ∑ b, X a b c d := Finset.sum_congr rfl fun c _ => Finset.sum_comm

/-! ## A non-negative real factor and a finite sum -/

/-- `(∑ f) * x = ∑ (f * x)` for a real `x ≥ 0`, whatever the terms are (infinities of both signs included). -/
theorem sum_mul_coe {ι : Type*} (s : Finset ι) (f : ι → EReal) {x : ℝ} (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha,
      EReal.right_distrib_of_nonneg_of_ne_top (EReal.coe_nonneg.mpr hx) (EReal.coe_ne_top x), ih]

/-! ## Sums over index sets of rank 1 and 3 -/

/-- A sum over a rank-1 index set is the sum over its one coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibFiniteSums

end
-- ==== Proof.Spec.lean ====
/-
  The mathematics both programs compute, stated once with no program in sight.

  Rows a_p (p < 4096) of one 4096 x 768 matrix, rows b_q of another, and an integer label g(p,q). With
      s(p,q) = ((|a_p|^2 + |b_q|^2) - 2 <a_p, b_q>) + c1 (sum a_p - sum b_q) + c2     (the squared distance, expanded),
      d = sqrt (max s 0),   h = max (2 - d) 0,
  the loss of the pair is  (1 - g) d d + g h h,  and the result is the sum of all 4096^2 pair losses divided by 2^24.
  Every literal is kept as the float word it is written with; only the order of the additions differs between
  the two programs, and addition on the extended reals is commutative and associative, so the sum over all pairs
  may be taken tile by tile (`sum_tiles`: 8 x 8 tiles of 512 x 512 pairs).
-/
import Idealize.ShloMosaic.PureOps.Ideal
import Idealize.ShloMosaic.PureOps.Ideal.Laws
import Idealize.ShloMosaic.Lib.ValueIdx
import proofs.«124694_j69415261438629_2_alg».proof.Proof.LibFiniteSums

noncomputable section

open scoped BigOperators

namespace Cert.PairLoss

open Idealize.ShloMosaic Idealize.ShloMosaic.ValueIdx

/-- A 4096 x 768 matrix of extended reals: one embedding per row. -/
abbrev Emb : Type := (⟨2, ![4096, 768]⟩ : Shape).Idx → EReal
/-- A 4096 x 4096 matrix of 32-bit integer labels. -/
abbrev Lab : Type := (⟨2, ![4096, 4096]⟩ : Shape).Idx → BitVec 32

/-- The squared length of row `p`. -/
def sqNorm (x : Emb) (p : Fin 4096) : EReal := ∑ k : Fin 768, x (ix2 p k) * x (ix2 p k)
/-- The sum of the entries of row `p`. -/
def rowTotal (x : Emb) (p : Fin 4096) : EReal := ∑ k : Fin 768, x (ix2 p k)
/-- The inner product of row `p` of `a` with row `q` of `b`. -/
def rowDot (a b : Emb) (p q : Fin 4096) : EReal := ∑ k : Fin 768, a (ix2 p k) * b (ix2 q k)

/-- The expanded squared distance from four sums: two squared lengths, one inner product, two row totals. -/
def sqDistOf (sa sb dot ra rb : EReal) : EReal :=
  (((sa + sb) - Ideal.ofBits .f32 0x40000000#32 * dot)
    + Ideal.ofBits .f32 0x360637BD#32 * (ra - rb)) + Ideal.ofBits .f32 0x30531B32#32

/-- The loss of one pair from its label (as a number) and its squared distance; `z` is the zero both maxima are taken against. -/
def lossOf (g s z : EReal) : EReal :=
  (Ideal.ofBits .f32 0x3F800000#32 - g) * Ideal.sqrt (max s z) * Ideal.sqrt (max s z)
    + g * max (Ideal.ofBits .f32 0x40000000#32 - Ideal.sqrt (max s z)) (Ideal.ofBits .f32 0x00000000#32)
        * max (Ideal.ofBits .f32 0x40000000#32 - Ideal.sqrt (max s z)) (Ideal.ofBits .f32 0x00000000#32)

/-- The squared distance of the pair (p, q). -/
def sqDist (a b : Emb) (p q : Fin 4096) : EReal :=
  sqDistOf (sqNorm a p) (sqNorm b q) (rowDot a b p q) (rowTotal a p) (rowTotal b q)

/-- The label of the pair as a number: the 32-bit word read as a signed integer. -/
def label (g : Lab) (p q : Fin 4096) : EReal := (((g (ix2 p q)).toInt : ℝ) : EReal)

/-- The loss of the pair (p, q). -/
def pairLoss (a b : Emb) (g : Lab) (p q : Fin 4096) : EReal :=
  lossOf (label g p q) (sqDist a b p q) (Ideal.ofBits .f32 0x00000000#32)

/-- The mean loss: the sum over all pairs divided by 2^24 = 4096^2 (the float word 0x4B800000). -/
def meanLoss (a b : Emb) (g : Lab) : EReal :=
  Ideal.div (∑ p : Fin 4096, ∑ q : Fin 4096, pairLoss a b g p q) (Ideal.ofBits .f32 0x4B800000#32)

/-- Row `r` of tile `t`: position `r + 512 t` of 4096. -/
def tileRow (t : Fin 8) (r : Fin 512) : Fin 4096 := ⟨r.val + 512 * t.val, by have := r.isLt; have := t.isLt; omega⟩

/-- The loss summed over the 512 x 512 pairs of tile (ti, tj). -/
def tileLoss (a b : Emb) (g : Lab) (ti tj : Fin 8) : EReal :=
  ∑ r : Fin 512, ∑ c : Fin 512, pairLoss a b g (tileRow ti r) (tileRow tj c)

/-- A sum over all pairs (p, q) is the sum over the 8 x 8 tiles of the sums over each tile's 512 x 512 pairs. -/
theorem sum_tiles {M : Type*} [AddCommMonoid M] (f : Fin 4096 → Fin 4096 → M) :
    ∑ p, ∑ q, f p q = ∑ ti : Fin 8, ∑ tj : Fin 8, ∑ r : Fin 512, ∑ c : Fin 512, f (tileRow ti r) (tileRow tj c) := by
  have h1 : ∀ g : Fin 4096 → M, ∑ x, g x = ∑ t : Fin 8, ∑ r : Fin 512, g (tileRow t r) :=
    fun g => Cert.LibFiniteSums.sum_split 8 512 4096 rfl g
  rw [h1 (fun p => ∑ q, f p q)]
  refine Finset.sum_congr rfl fun ti _ => ?_
  have h2 : ∀ r : Fin 512, ∑ q, f (tileRow ti r) q = ∑ tj : Fin 8, ∑ c : Fin 512, f (tileRow ti r) (tileRow tj c) :=
    fun r => h1 _
  simp only [h2]
  exact Finset.sum_comm

/-- The mean loss, tile by tile. -/
theorem meanLoss_eq_tiles (a b : Emb) (g : Lab) :
    meanLoss a b g = Ideal.div (∑ ti : Fin 8, ∑ tj : Fin 8, tileLoss a b g ti tj) (Ideal.ofBits .f32 0x4B800000#32) := by
  unfold meanLoss tileLoss
  rw [sum_tiles]

end Cert.PairLoss

end
-- ==== Proof.Payload.lean ====
/-
  The body's arithmetic read at an index, on the extended reals.

  The tile of squared distances (`k0_pay5`) is read entry by entry: entry (r, c) is built from five sums over the 768
  features — the squared lengths of image row r and text row c, their inner product, and the two row totals.
  The accumulator update (`k0_pay1`) adds to the accumulator's one entry the sum over the 512 x 512 tile of the
  pair losses, each a function of the entry's label and squared distance alone.
-/
import proofs.«124694_j69415261438629_2_alg».proof.Proof.Gen.KernelIdeal.Skeleton
import proofs.«124694_j69415261438629_2_alg».proof.Proof.LibMatrixAtIndex
import proofs.«124694_j69415261438629_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen Cert.KernelIdeal.Pay Cert.PairLoss

/-! ## A sum down the one column of a column matrix -/

/-- The index over the one column `u` with row `k` inserted is `(k, u)`. -/
theorem lift_col {a : Nat} (h : (⟨2, ![a, 1]⟩ : Shape).Reduces [0] ⟨1, ![1]⟩) (u : Fin 1) (k : Fin a) :
    h.lift (ix1 u) k = ix2 k u := by
  funext c
  match c with
  | ⟨0, _⟩ => exact Fin.ext rfl
  | ⟨1, _⟩ => exact Fin.ext rfl

/-- A sum down a one-column matrix: the sum of its entries. -/
theorem colSum_apply {a : Nat} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (u : Fin 1) :
    multiReduction .add [0] ⟨1, ![1]⟩ src acc h hφ hacc (ix1 u) = ∑ k : Fin a, src (ix2 k u) :=
  (Ideal.multiReduction_add_single src acc h hφ hacc (ix1 u)).trans
    (Finset.sum_congr rfl fun k _ => congrArg src (lift_col h u k))

/-! ## The pieces of the squared-distance tile -/

/-- The row sums of a 512 x 768 block, kept as a column. -/
def rowSums (v : FVec Ideal S512x768 .f32) : FVec Ideal S512x1 .f32 :=
  shapeCast S512x1 (multiReduction .add [1] S512 v 0x00000000#32 reduces_S512x768_S512 (.inl rfl) rfl) shapeCasts_S512_S512x1

theorem rowSums_apply (v : FVec Ideal S512x768 .f32) (r : Fin 512) (u : Fin 1) :
    rowSums v (ix2 r u) = ∑ k : Fin 768, v (ix2 r k) :=
  (shapeCast_col_apply _ shapeCasts_S512_S512x1 r u).trans
    (rowSum_apply v 0x00000000#32 reduces_S512x768_S512 (.inl rfl) rfl r)

/-- A column repeated across the 512 columns of the tile: entry (r, c) is the column's entry r. -/
def down (v : FVec Ideal S512x1 .f32) : FVec Ideal S512x512 .f32 := broadcastTo S512x512 v broadcasts_S512x1_S512x512

theorem down_apply (v : FVec Ideal S512x1 .f32) (r c : Fin 512) : down v (ix2 r c) = v (ix2 r (0 : Fin 1)) :=
  broadcastTo_col_apply v broadcasts_S512x1_S512x512 r c

/-- A column laid as a row and repeated down the 512 rows of the tile: entry (r, c) is the column's entry c. -/
def across (v : FVec Ideal S512x1 .f32) : FVec Ideal S512x512 .f32 :=
  broadcastTo S512x512 (transpose S1x512 [1, 0] v transposes_S512x1_p1_0_S1x512) broadcasts_S1x512_S512x512

theorem across_apply (v : FVec Ideal S512x1 .f32) (r c : Fin 512) : across v (ix2 r c) = v (ix2 c (0 : Fin 1)) :=
  (broadcastTo_1b_ab_apply _ broadcasts_S1x512_S512x512 r c).trans
    (transpose_ix2_apply v transposes_S512x1_p1_0_S1x512 (0 : Fin 1) c)

/-- The tile of inner products: image rows against text rows. -/
def dots (v3 v7 : FVec Ideal S512x768 .f32) : FVec Ideal S512x512 .f32 :=
  matmul dot_S512x768_S768x512_S512x512_1_0_0_1_n_n none (truncf .bf16 v3 bitsLt_bf16_f32)
    (transpose S768x512 [1, 0] (truncf .bf16 v7 bitsLt_bf16_f32) transposes_S512x768_p1_0_S768x512)
    (constant S512x512 .f32 0x00000000#32)

theorem dots_apply (v3 v7 : FVec Ideal S512x768 .f32) (r c : Fin 512) :
    dots v3 v7 (ix2 r c) = ∑ k : Fin 768, v3 (ix2 r k) * v7 (ix2 c k) := by
  have h := matmul_rowcol_apply dot_S512x768_S768x512_S512x512_1_0_0_1_n_n rfl rfl rfl rfl rfl rfl rfl rfl none v3
    (transpose S768x512 [1, 0] v7 transposes_S512x768_p1_0_S768x512) r c
  refine (show dots v3 v7 (ix2 r c) = _ from h).trans (Finset.sum_congr rfl fun k _ => ?_)
  exact congrArg (v3 (ix2 r k) * ·) (transpose_ix2_apply v7 transposes_S512x768_p1_0_S768x512 k c)

/-- The squared-distance tile is assembled from those pieces. -/
theorem pay5_eq (v3 v7 : FVec Ideal S512x768 .f32) :
    k0_pay5 (F := Ideal) v3 v7
      = addf (addf (subf (addf (down (rowSums (mulf v3 v3))) (across (rowSums (mulf v7 v7))))
            (mulf (broadcast S512x512 (Scalar.ofBits .f32 0x40000000#32)) (dots v3 v7)))
          (mulf (broadcast S512x512 (Scalar.ofBits .f32 0x360637BD#32)) (subf (down (rowSums v3)) (across (rowSums v7)))))
        (broadcast S512x512 (Scalar.ofBits .f32 0x30531B32#32)) := rfl

/-- Entry (r, c) of the squared-distance tile, from the five sums over the features of image row r and text row c. -/
theorem pay5_apply (v3 v7 : FVec Ideal S512x768 .f32) (r c : Fin 512) :
    k0_pay5 (F := Ideal) v3 v7 (ix2 r c)
      = sqDistOf (∑ k : Fin 768, v3 (ix2 r k) * v3 (ix2 r k)) (∑ k : Fin 768, v7 (ix2 c k) * v7 (ix2 c k))
          (∑ k : Fin 768, v3 (ix2 r k) * v7 (ix2 c k)) (∑ k : Fin 768, v3 (ix2 r k)) (∑ k : Fin 768, v7 (ix2 c k)) := by
  rw [pay5_eq]
  show (((down (rowSums (mulf v3 v3)) (ix2 r c) + across (rowSums (mulf v7 v7)) (ix2 r c))
      - Ideal.ofBits .f32 0x40000000#32 * dots v3 v7 (ix2 r c))
      + Ideal.ofBits .f32 0x360637BD#32 * (down (rowSums v3) (ix2 r c) - across (rowSums v7) (ix2 r c)))
      + Ideal.ofBits .f32 0x30531B32#32 = _
  rw [down_apply, across_apply, down_apply, across_apply, rowSums_apply, rowSums_apply, rowSums_apply, rowSums_apply,
    dots_apply]
  rfl

/-! ## The accumulator update -/

/-- The tile of pair losses from the tile of labels, the tile of squared distances and the zero the maxima are against. -/
def lossTile (v9 v39 : FVec Ideal S512x512 .f32) (z : Ideal .f32) : FVec Ideal S512x512 .f32 :=
  have v42 : FVec Ideal S512x512 .f32 := sqrt (maximumf v39 (broadcast S512x512 z))
  have v46 : FVec Ideal S512x512 .f32 :=
    maximumf (subf (broadcast S512x512 (Scalar.ofBits .f32 0x40000000#32)) v42) (broadcast S512x512 (Scalar.ofBits .f32 0x00000000#32))
  addf (mulf (mulf (subf (broadcast S512x512 (Scalar.ofBits .f32 0x3F800000#32)) v9) v42) v42) (mulf (mulf v9 v46) v46)

/-- Each entry is the loss of its own label and squared distance. -/
theorem lossTile_apply (v9 v39 : FVec Ideal S512x512 .f32) (z : Ideal .f32) (j : S512x512.Idx) :
    lossTile v9 v39 z j = lossOf (v9 j) (v39 j) z := rfl

/-- The sum of all entries of a 512 x 512 tile, as a one-entry matrix: first along the rows, then down the column. -/
def total (v : FVec Ideal S512x512 .f32) : FVec Ideal S1x1 .f32 :=
  shapeCast S1x1 (multiReduction .add [0] S1
      (shapeCast S512x1 (multiReduction .add [1] S512 v 0x00000000#32 reduces_S512x512_S512 (.inl rfl) rfl) shapeCasts_S512_S512x1)
      0x00000000#32 reduces_S512x1_S1 (.inl rfl) rfl) shapeCasts_S1_S1x1

theorem total_apply (v : FVec Ideal S512x512 .f32) (u u' : Fin 1) :
    total v (ix2 u u') = ∑ r : Fin 512, ∑ c : Fin 512, v (ix2 r c) :=
  (shapeCast_col_apply _ shapeCasts_S1_S1x1 u u').trans
    ((colSum_apply _ 0x00000000#32 reduces_S512x1_S1 (.inl rfl) rfl u).trans
      (Finset.sum_congr rfl fun r _ => (shapeCast_col_apply _ shapeCasts_S512_S512x1 r u).trans
        (rowSum_apply v 0x00000000#32 reduces_S512x512_S512 (.inl rfl) rfl r)))

/-- The update is the accumulator plus the total of the loss tile. -/
theorem pay1_eq (v9 v39 : FVec Ideal S512x512 .f32) (z : Ideal .f32) (v58 : FVec Ideal S1x1 .f32) :
    k0_pay1 (F := Ideal) v9 v39 z v58 = shapeCast S1x1 (addf v58 (total (lossTile v9 v39 z))) shapeCasts_S1x1_S1x1 := rfl

/-- The updated accumulator's one entry: what it held plus the sum over the tile of the pair losses. -/
theorem pay1_apply (v9 v39 : FVec Ideal S512x512 .f32) (z : Ideal .f32) (v58 : FVec Ideal S1x1 .f32) (u u' : Fin 1) :
    k0_pay1 (F := Ideal) v9 v39 z v58 (ix2 u u')
      = v58 (ix2 u u') + ∑ r : Fin 512, ∑ c : Fin 512, lossOf (v9 (ix2 r c)) (v39 (ix2 r c)) z := by
  rw [pay1_eq, shapeCast_self]
  show v58 (ix2 u u') + total (lossTile v9 v39 z) (ix2 u u') = _
  rw [total_apply]
  rfl

/-! ## The small payloads -/

/-- The label tile as numbers: each 32-bit word read as a signed integer. -/
theorem pay4_apply (v8 : IVec S512x512 32) (j : S512x512.Idx) :
    k0_pay4 (F := Ideal) v8 j = (((v8 j).toInt : ℝ) : EReal) := rfl

/-- The reset value of the accumulator is zero. -/
theorem pay3_apply (j : S1x1.Idx) : k0_pay3 (F := Ideal) j = 0 := by
  unfold k0_pay3
  rw [shapeCast_self]
  exact Ideal.ofBits_zero_f32

/-- The output block's one entry is the accumulator's one entry. -/
theorem pay2_apply (v66 : FVec Ideal S1x1 .f32) (u u' u'' : Fin 1) :
    k0_pay2 (F := Ideal) v66 (ix3 u u' u'') = v66 (ix2 u' u'') :=
  shapeCast_ab_1ab_apply v66 shapeCasts_S1x1_S1x1x1 u u' u''

end Cert.KernelIdeal.Payload

end
-- ==== Proof.Tiles.lean ====
/-
  What the kernel's output array holds after the run.

  Grid point n works on tile (n / 8, n % 8): image rows 512 (n / 8) …, text rows 512 (n % 8) …, and the label
  tile at those rows and columns (the window blocks, read off the argument arrays). After point n the one-entry
  accumulator holds the sum of the tile losses of the points of n's row of tiles up to n (induction on n: a reset to
  zero at the first point of a row of tiles, one tile loss added per point). At the last point of a row the accumulator
  is written to the output, so entry (i, 0, 0) of the 8 x 1 x 1 output array ends as the sum of the eight tile
  losses of row i.
-/
import proofs.«124694_j69415261438629_2_alg».proof.Defs
import proofs.«124694_j69415261438629_2_alg».proof.Proof.Gen.KernelIdeal.Frame
import proofs.«124694_j69415261438629_2_alg».proof.Proof.Pieces
import proofs.«124694_j69415261438629_2_alg».proof.Proof.Payload
import proofs.«124694_j69415261438629_2_alg».proof.Proof.Spec
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.PairLoss

variable (m : (ℓ : Loc nD τ sig) → Buf (Elt Ideal) ℓ)

/-- The three argument arrays on core `c`: image embeddings, text embeddings, labels. -/
abbrev img (c : Dev nD) : Emb := m ((c : Thread nD τ).loc main_arg0)
abbrev txt (c : Dev nD) : Emb := m ((c : Thread nD τ).loc main_arg1)
abbrev lab (c : Dev nD) : Lab := m ((c : Thread nD τ).loc main_arg2)

/-! ## The grid: point n is tile (n / 8, n % 8) -/

theorem lt64 (t : Fin cfg0.N) : t.val < 64 := lt_of_lt_of_eq t.isLt (show cfg0.N = 64 from N_0)

/-- The row of tiles of a point, and its place in the row. -/
def ti (t : Fin cfg0.N) : Fin 8 := ⟨t.val / 8, by have := lt64 t; omega⟩
def tj (t : Fin cfg0.N) : Fin 8 := ⟨t.val % 8, Nat.mod_lt _ (by decide)⟩

/-- The grid coordinates and the windows' block indices at each point, decided over the grid. -/
theorem grid_facts : ∀ t : Fin cfg0.N, (grid0.coords t 0).val = t.val / 8 ∧ (grid0.coords t 1).val = t.val % 8
    ∧ win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = t.val % 8
    ∧ win0_3.index t (0 : Fin 3) = t.val / 8 ∧ win0_3.index t (1 : Fin 3) = 0 ∧ win0_3.index t (2 : Fin 3) = 0 :=
  (by decide +kernel : ∀ t : Fin grid0.N, _)

/-! ## The window blocks, read off the argument arrays -/

/-- The image block at point `t` is rows `512 (t / 8) …` of the image array. -/
theorem img_block (c : Dev nD) (t : Fin cfg0.N) (r : Fin 512) (k : Fin 768) :
    (iblk m c 0 t : FVec Ideal S512x768 .f32) (ix2 r k) = img m c (ix2 (tileRow (ti t) r) k) := by
  obtain ⟨-, -, e0, e1, -⟩ := grid_facts t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 512 + 1 * r.val = r.val + 512 * (t.val / 8); rw [e0]; omega
  | ⟨1, _⟩ => show win0_0.index t (1 : Fin 2) * 768 + 1 * k.val = k.val; rw [e1]; omega

/-- The text block is the whole text array, and the rows the body loads from it at point `t` are rows `512 (t % 8) …`. -/
theorem txt_block (c : Dev nD) (t : Fin cfg0.N) (cc : Fin 512) (k : Fin 768) :
    Pieces.txtRows (grid0.coords t) (iblk m c 1 t) (ix2 cc k) = txt m c (ix2 (tileRow (tj t) cc) k) := by
  obtain ⟨-, c1, -, -, e0, e1, -⟩ := grid_facts t
  have ho0 : k0_off1 (grid0.coords t) 0 = 512 * (grid0.coords t 1).val := congrFun (k0_off1_eq _) 0
  have ho1 : k0_off1 (grid0.coords t) 1 = 0 := congrFun (k0_off1_eq _) 1
  show (iblk m c 1 t) ((Rect.unit (s := S4096x768) (k0_off1 (grid0.coords t)) S512x768.size (k0_off1_inb _)).idx (ix2 cc k)) = _
  unfold iblk
  rw [View.read_apply]
  show V m c main_arg1 _ = m (c.tc.loc main_arg1) _
  rw [V_main_arg1]
  refine congrArg _ (funext fun a => Fin.ext ?_)
  match a with
  | ⟨0, _⟩ =>
    show win0_1.index t (0 : Fin 2) * 4096 + 1 * (k0_off1 (grid0.coords t) 0 + 1 * cc.val) = cc.val + 512 * (t.val % 8)
    rw [e0, ho0, c1]; omega
  | ⟨1, _⟩ =>
    show win0_1.index t (1 : Fin 2) * 768 + 1 * (k0_off1 (grid0.coords t) 1 + 1 * k.val) = k.val
    rw [e1, ho1]; omega

/-- The label block at point `t` is rows `512 (t / 8) …`, columns `512 (t % 8) …` of the label array. -/
theorem lab_block (c : Dev nD) (t : Fin cfg0.N) (r cc : Fin 512) :
    (iblk m c 2 t : IVec S512x512 32) (ix2 r cc) = lab m c (ix2 (tileRow (ti t) r) (tileRow (tj t) cc)) := by
  obtain ⟨-, -, -, -, -, -, e0, e1, -⟩ := grid_facts t
  unfold iblk
  rw [View.read_apply]
  show V m c main_arg2 _ = m (c.tc.loc main_arg2) _
  rw [V_main_arg2]
  refine congrArg _ (funext fun a => Fin.ext ?_)
  match a with
  | ⟨0, _⟩ => show win0_2.index t (0 : Fin 2) * 512 + 1 * r.val = r.val + 512 * (t.val / 8); rw [e0]; omega
  | ⟨1, _⟩ => show win0_2.index t (1 : Fin 2) * 512 + 1 * cc.val = cc.val + 512 * (t.val % 8); rw [e1]; omega

/-! ## One point's update, at the accumulator's entry -/

/-- Over any blocks that are tile (p, q) of three arrays, the update adds the tile's loss to the accumulator's entry. -/
theorem step_apply_of (i : grid0.Coords) (x0 : FVec Ideal S512x768 .f32) (x1 : FVec Ideal S4096x768 .f32)
    (x2 : IVec S512x512 32) (acc : FVec Ideal S1x1 .f32) (a b : Emb) (g : Lab) (p q : Fin 8)
    (h0 : ∀ r k, x0 (ix2 r k) = a (ix2 (tileRow p r) k))
    (h1 : ∀ cc k, Pieces.txtRows (F := Ideal) i x1 (ix2 cc k) = b (ix2 (tileRow q cc) k))
    (h2 : ∀ r cc, x2 (ix2 r cc) = g (ix2 (tileRow p r) (tileRow q cc))) (u u' : Fin 1) :
    Pieces.step (F := Ideal) i x0 x1 x2 acc (ix2 u u') = acc (ix2 u u') + tileLoss a b g p q := by
  unfold Pieces.step
  rw [Payload.pay1_apply]
  unfold tileLoss
  refine congrArg (acc (ix2 u u') + ·) (Finset.sum_congr rfl fun r _ => Finset.sum_congr rfl fun cc _ => ?_)
  rw [Payload.pay4_apply, Payload.pay5_apply, h2]
  simp only [h0, h1]
  rfl

/-- At point `t`, over the window blocks: the loss of tile (t / 8, t % 8) is added. -/
theorem step_apply (c : Dev nD) (t : Fin cfg0.N) (acc : FVec Ideal S1x1 .f32) (u u' : Fin 1) :
    Pieces.step (grid0.coords t) (iblk m c 0 t) (iblk m c 1 t) (iblk m c 2 t) acc (ix2 u u')
      = acc (ix2 u u') + tileLoss (img m c) (txt m c) (lab m c) (ti t) (tj t) :=
  step_apply_of (grid0.coords t) (iblk m c 0 t) (iblk m c 1 t) (iblk m c 2 t) acc (img m c) (txt m c) (lab m c) (ti t) (tj t)
    (img_block m c t) (txt_block m c t) (lab_block m c t) u u'

/-! ## The accumulator after each point -/

/-- At the first point of a row of tiles the accumulator is reset and updated; -/
theorem scratch_first (c : Dev nD) (t : Fin cfg0.N) (h0 : t.val % 8 = 0) :
    (outsAt0 m c t.val t.isLt).2 = Pieces.step (grid0.coords t) (iblk m c 0 t) (iblk m c 1 t) (iblk m c 2 t) (k0_pay3 (F := Ideal)) := by
  have h1 : ¬t.val % 8 = 7 := by omega
  rw [outsAt0_A m c t h0 h1]
  exact Pieces.soutA c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- at every other point it is updated from what the point before left. -/
theorem scratch_next (c : Dev nD) (t : Fin cfg0.N) (h0 : ¬t.val % 8 = 0) :
    (outsAt0 m c t.val t.isLt).2 = Pieces.step (grid0.coords t) (iblk m c 0 t) (iblk m c 1 t) (iblk m c 2 t)
      (outsAt0 m c (t.val - 1) (Nat.lt_of_le_of_lt (Nat.sub_le _ _) t.isLt)).2 := by
  by_cases h1 : t.val % 8 = 7
  · rw [outsAt0_C m c t h0 h1]
    exact Pieces.soutC c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) _
  · rw [outsAt0_B m c t h0 h1]
    exact Pieces.soutB c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) _

/-- At the last point of a row of tiles the output block receives the updated accumulator. -/
theorem out_last (c : Dev nD) (t : Fin cfg0.N) (h1 : t.val % 8 = 7) :
    (outsAt0 m c t.val t.isLt).1 = k0_pay2 (Pieces.step (grid0.coords t) (iblk m c 0 t) (iblk m c 1 t) (iblk m c 2 t)
      (outsAt0 m c (t.val - 1) (Nat.lt_of_le_of_lt (Nat.sub_le _ _) t.isLt)).2) := by
  have h0 : ¬t.val % 8 = 0 := by omega
  rw [outsAt0_C m c t h0 h1]
  exact Pieces.outC c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) _

/-- The loss of the tile point `s` works on; zero past the grid (never used there). -/
def tileAt (c : Dev nD) (s : ℕ) : EReal :=
  if h : s < 64 then tileLoss (img m c) (txt m c) (lab m c) ⟨s / 8, by omega⟩ ⟨s % 8, by omega⟩ else 0

theorem tileAt_point (c : Dev nD) (t : Fin cfg0.N) :
    tileAt m c t.val = tileLoss (img m c) (txt m c) (lab m c) (ti t) (tj t) := by
  unfold tileAt
  rw [dif_pos (lt64 t)]
  rfl

/-- After point `n` the accumulator's entry is the sum of the tile losses of the points of n's row of tiles up to n. -/
theorem acc_eq (c : Dev nD) : ∀ (n : ℕ) (h : n < cfg0.N) (u u' : Fin 1),
    (outsAt0 m c n h).2 (ix2 u u') = ∑ j ∈ Finset.range (n % 8 + 1), tileAt m c (n / 8 * 8 + j)
  | 0, h, u, u' => by
    rw [scratch_first m c ⟨0, h⟩ rfl, step_apply, Payload.pay3_apply, zero_add, ← tileAt_point]
    simp
  | n + 1, h, u, u' => by
    have hN : n + 1 < 64 := lt64 ⟨n + 1, h⟩
    by_cases h0 : (n + 1) % 8 = 0
    · rw [scratch_first m c ⟨n + 1, h⟩ h0, step_apply, Payload.pay3_apply, zero_add, ← tileAt_point]
      show tileAt m c (n + 1) = _
      rw [h0, Finset.sum_range_one]
      exact congrArg (tileAt m c) (by omega)
    · rw [scratch_next m c ⟨n + 1, h⟩ h0, step_apply, ← tileAt_point]
      show (outsAt0 m c n _).2 (ix2 u u') + tileAt m c (n + 1) = _
      rw [acc_eq c n (Nat.lt_of_succ_lt h) u u']
      have e1 : (n + 1) % 8 = n % 8 + 1 := by omega
      have e2 : (n + 1) / 8 = n / 8 := by omega
      rw [e1, e2, Finset.sum_range_succ _ (n % 8 + 1)]
      exact congrArg (_ + tileAt m c ·) (by omega)

/-! ## The output array -/

/-- The summed loss of row `i` of tiles. -/
def rowLoss (c : Dev nD) (i : ℕ) : EReal := ∑ j ∈ Finset.range 8, tileAt m c (i * 8 + j)

/-- What the output array ends holding: at (i, 0, 0), the summed loss of row i of tiles. -/
def outArr (c : Dev nD) : S8x1x1.Idx → EReal := fun i => rowLoss m c (i 0).val

/-- The block the last point of a row of tiles writes back: its one entry is that row's summed loss. -/
theorem out_entry (c : Dev nD) (t : Fin cfg0.N) (h1 : t.val % 8 = 7) (y : S1x1x1.Idx) :
    ((outsAt0 m c t.val t.isLt).1 : FVec Ideal S1x1x1 .f32) y = rowLoss m c (t.val / 8) := by
  obtain ⟨u, u', u'', rfl⟩ : ∃ (u u' u'' : Fin 1), y = ix3 u u' u'' := ⟨y 0, y 1, y 2, eq_ix3 y⟩
  rw [out_last m c t h1, Payload.pay2_apply]
  have hs := scratch_next m c t (by omega)
  rw [← hs, acc_eq m c t.val t.isLt u' u'', h1]
  rfl

theorem flushed_eq (c : Dev nD) (t : Fin cfg0.N) (hf : (cfg0.win 3).flush t = true) :
    (dats m 0 c).flushed 3 t = ((cfg0.win 3).blk t).view.read (Elt Ideal) (outArr m c) := by
  have h1 : t.val % 8 = 7 := (flush0_3 t).mp hf
  obtain ⟨-, -, -, -, -, -, -, -, e0, -⟩ := grid_facts t
  show (cfg0.win 3).cut (grid0.coords t) ((dats m 0 c).after 3 t) = _
  rw [after0_3]
  funext y
  rw [View.read_apply]
  show ((outsAt0 m c t.val t.isLt).1 : FVec Ideal S1x1x1 .f32) y = outArr m c (((cfg0.win 3).blk t).view.emb y)
  rw [out_entry m c t h1 y]
  unfold outArr
  refine congrArg (rowLoss m c) ?_
  show t.val / 8 = win0_3.index t (0 : Fin 3) * 1 + 1 * (y 0).val
  have hy : (y 0).val < 1 := (y 0).isLt
  rw [e0]; omega

/-- So the output array ends holding `outArr`: entry (i, 0, 0) is covered by the block of point 8 i + 7. -/
theorem final_out (c : Dev nD) : (dats m 0 c).arrAt 3 cfg0.N = outArr m c :=
  (dats m 0 c).arrAt_eq_of_cover 3 (outArr m c) (flushed_eq m c) fun i => by
    have h0 : (i 0 : Nat) < 8 := (i 0).isLt
    have h1 : (i 1 : Nat) < 1 := (i 1).isLt
    have h2 : (i 2 : Nat) < 1 := (i 2).isLt
    have hN : cfg0.N = 64 := N_0
    have hp : (i 0).val * 8 + 7 < cfg0.N := by omega
    refine ⟨⟨(i 0).val * 8 + 7, hp⟩, (flush0_3 _).mpr (by show ((i 0).val * 8 + 7) % 8 = 7; omega), ?_⟩
    obtain ⟨-, -, -, -, -, -, -, -, e0, e1, e2⟩ := grid_facts ⟨(i 0).val * 8 + 7, hp⟩
    show i ∈ ((View.whole main_v0).slice (win0_3.rect ⟨(i 0).val * 8 + 7, hp⟩)).set
    rw [View.set_slice_whole, Rect.mem_set_unit]
    intro a
    match a with
    | ⟨0, _⟩ =>
      show win0_3.index _ (0 : Fin 3) * 1 ≤ (i 0 : Nat) ∧ (i 0 : Nat) < win0_3.index _ (0 : Fin 3) * 1 + 1
      rw [e0]; show ((i 0).val * 8 + 7) / 8 * 1 ≤ (i 0 : Nat) ∧ (i 0 : Nat) < ((i 0).val * 8 + 7) / 8 * 1 + 1; omega
    | ⟨1, _⟩ =>
      show win0_3.index _ (1 : Fin 3) * 1 ≤ (i 1 : Nat) ∧ (i 1 : Nat) < win0_3.index _ (1 : Fin 3) * 1 + 1
      rw [e1]; omega
    | ⟨2, _⟩ =>
      show win0_3.index _ (2 : Fin 3) * 1 ≤ (i 2 : Nat) ∧ (i 2 : Nat) < win0_3.index _ (2 : Fin 3) * 1 + 1
      rw [e2]; omega

end Cert.KernelIdeal.Tiles

end
-- ==== Proof.Result.lean ====
/-
  The kernel's result.

  After the region the program sums the 8 x 1 x 1 output array and divides by 2^24. Entry (i, 0, 0) of that array is
  the summed loss of row i of tiles, so the total is the sum over all 8 x 8 tiles of the tile losses, which is the sum
  over all pairs: the result is the mean loss.
-/
import proofs.«124694_j69415261438629_2_alg».proof.Defs
import proofs.«124694_j69415261438629_2_alg».proof.Proof.Gen.KernelIdeal.Frame
import proofs.«124694_j69415261438629_2_alg».proof.Proof.Tiles
import proofs.«124694_j69415261438629_2_alg».proof.Proof.LibFiniteSums
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.PairLoss Cert.KernelIdeal.Tiles

variable (m : (ℓ : Loc nD τ sig) → Buf (Elt Ideal) ℓ) (ρ : Dev nD → PrngReg)

/-- The summed loss of row `a` of tiles, over the tiles of the row. -/
theorem rowLoss_eq (c : Dev nD) (a : Fin 8) :
    rowLoss m c a.val = ∑ tj : Fin 8, tileLoss (img m c) (txt m c) (lab m c) a tj := by
  unfold rowLoss
  rw [← Fin.sum_univ_eq_sum_range (fun j => tileAt m c (a.val * 8 + j)) 8]
  refine Finset.sum_congr rfl fun tj _ => ?_
  have h : a.val * 8 + tj.val < 64 := by have := a.isLt; have := tj.isLt; omega
  unfold tileAt
  rw [dif_pos h]
  exact congrArg₂ (tileLoss (img m c) (txt m c) (lab m c))
    (Fin.ext (by show (a.val * 8 + tj.val) / 8 = a.val; have := tj.isLt; omega))
    (Fin.ext (by show (a.val * 8 + tj.val) % 8 = tj.val; have := tj.isLt; omega))

/-- The host operations after the region leave the mean loss in the result buffer. -/
theorem tail_eq (c : Dev nD) :
    Pipeline.afterTail₀ cfgs (dats m) 0 (V0 m) [hostOps1] c main_v2 = fun _ => meanLoss (img m c) (txt m c) (lab m c) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v0)
      = outArr m c :=
    (Pipeline.withArrays_arr spec0 launch0.win.arr_inj c _ _ 3).trans (final_out m c)
  rw [hA]
  funext j
  show Ideal.div (Host.reduceAdd (F := Ideal) (outArr m c) (constant S_ .f32 0x00000000#32) reducesTo_S8x1x1_S_d0_1_2 h_S_ j)
      (Ideal.ofBits .f32 0x4B800000#32) = _
  simp only [Host.reduceAdd, Ideal.hostReduceAdd_def]
  rw [Ideal.hostReduceAdd_total reducesTo_S8x1x1_S_d0_1_2 (fun b => b.elim0)]
  show Ideal.div (Ideal.ofBits .f32 0x00000000#32 + ∑ i : S8x1x1.Idx, outArr m c i) _ = _
  rw [Ideal.ofBits_zero_f32, zero_add, meanLoss_eq_tiles, Cert.LibFiniteSums.sum_idx3]
  refine congrArg (Ideal.div · _) (Finset.sum_congr rfl fun a _ => ?_)
  rw [Fin.sum_univ_one, Fin.sum_univ_one]
  exact rowLoss_eq m c a

/-- The run: every weakly fair execution ends with the result buffer at the mean loss and the arguments unchanged. -/
theorem run : θ_run defs (onTc (τ := τ) (main (F := Ideal))) ⟨m, fun _ => 0, ρ⟩ fun r => ∀ c : Dev nD,
      r.2.mem ((c : Thread nD τ).loc main_v2) = (fun _ => meanLoss (img m c) (txt m c) (lab m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.RefValue.lean ====
/-
  The reference computes the mean pair loss.

  Its program forms, for every pair (p, q) at once, the four row reductions, the matrix of inner products, the expanded
  squared distance, the distance, the hinge and the loss, then sums the 4096 x 4096 losses and divides by 2^24.
  Read entry by entry its loss matrix is `pairLoss` at (p, q); the sum over the matrix's index set is the double sum.
-/
import proofs.«124694_j69415261438629_2_alg».proof.Proof.Gen.ReferenceIdeal.Read
import proofs.«124694_j69415261438629_2_alg».proof.Proof.Spec

noncomputable section

open scoped BigOperators
open Idealize.ShloMosaic Idealize.ShloMosaic.ValueIdx

namespace Cert.ReferenceIdeal.RefValue

open Cert.ReferenceIdeal Cert.ReferenceIdeal.Read Cert.PairLoss

/-- Entry (p, q) of the reference's loss matrix is the loss of the pair (p, q). -/
theorem elem_eq (x0 x1 : (⟨S4096x768, .f32⟩ : BufTy).Contents (Elt Ideal)) (x2 : (⟨S4096x4096, .i32⟩ : BufTy).Contents (Elt Ideal))
    (p q : Fin 4096) :
    val_main_v40 (F := Ideal) x0 x1 x2 (ix2 p q) = pairLoss x0 x1 x2 p q := by
  have e1 : ∀ k : Fin 768, idx_main_v1 (idx_main_v8 (idx_main_v10 (ix2 p q))) k = ix2 p k :=
    fun k => funext fun a => Fin.ext (by match a with | ⟨0, _⟩ => rfl | ⟨1, _⟩ => rfl)
  have e3 : ∀ k : Fin 768, idx_main_v3 (idx_main_v9 (idx_main_v11 (ix2 p q))) k = ix2 q k :=
    fun k => funext fun a => Fin.ext (by match a with | ⟨0, _⟩ => rfl | ⟨1, _⟩ => rfl)
  have e5l : ∀ k : Fin 768, lidx_main_v5 (ix2 p q) k = ix2 p k :=
    fun k => funext fun a => Fin.ext (by match a with | ⟨0, _⟩ => rfl | ⟨1, _⟩ => rfl)
  have e5r : ∀ k : Fin 768, idx_main_v4 (ridx_main_v5 (ix2 p q) k) = ix2 q k :=
    fun k => funext fun a => Fin.ext (by match a with | ⟨0, _⟩ => rfl | ⟨1, _⟩ => rfl)
  have e6 : ∀ k : Fin 768, idx_main_v6 (idx_main_v16 (idx_main_v18 (ix2 p q))) k = ix2 p k :=
    fun k => funext fun a => Fin.ext (by match a with | ⟨0, _⟩ => rfl | ⟨1, _⟩ => rfl)
  have e7 : ∀ k : Fin 768, idx_main_v7 (idx_main_v17 (idx_main_v19 (ix2 p q))) k = ix2 q k :=
    fun k => funext fun a => Fin.ext (by match a with | ⟨0, _⟩ => rfl | ⟨1, _⟩ => rfl)
  have hsi : ∀ b : BitVec 32, FloatOps.sitofp (F := Ideal) .f32 b = (((b.toInt : ℝ)) : EReal) := fun _ => rfl
  unfold pairLoss lossOf label sqDist sqDistOf sqNorm rowDot rowTotal
  simp only [val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply, val_main_cst_3_apply, val_main_cst_4_apply, val_main_cst_5_apply, val_main_cst_6_apply, val_main_cst_7_apply, val_main_cst_8_apply, val_main_cst_9_apply,
    e1, e3, e5l, e5r, e6, e7, hsi, Ideal.addf_def, Ideal.subf_def, Ideal.mulf_def, Ideal.maximumf_def,
    Ideal.hostUnary_sqrt_def, Ideal.ofBits_def, Ideal.ofBits_zero_f32, zero_add]

/-- The reference's result is the mean loss. -/
theorem ref_eq (x0 x1 : (⟨S4096x768, .f32⟩ : BufTy).Contents (Elt Ideal)) (x2 : (⟨S4096x4096, .i32⟩ : BufTy).Contents (Elt Ideal))
    (i : S_.Idx) :
    val_main_v42 (F := Ideal) x0 x1 x2 i = meanLoss x0 x1 x2 := by
  rw [val_main_v42_apply, val_main_v41_apply, val_main_cst_10_apply, val_main_cst_11_apply, sum_idx2]
  simp only [elem_eq]
  unfold meanLoss
  simp only [Ideal.hostDivf_def, Ideal.ofBits_def, Ideal.ofBits_zero_f32, zero_add]

end Cert.ReferenceIdeal.RefValue

end
-- ==== Proof.lean ====
/-
  A contrastive loss over all 4096 x 4096 (image, text) pairs, computed tile by tile against computed all at once.

  For image rows a_p and text rows b_q (768 features each) and integer labels g(p,q), with the squared distance expanded as
      s(p,q) = ((|a_p|^2 + |b_q|^2) - 2 <a_p, b_q>) + c1 (sum a_p - sum b_q) + c2,
  d = sqrt (max s 0) and h = max (2 - d) 0, the loss of a pair is (1 - g) d d + g h h and the result is the sum of
  all pair losses divided by 2^24.

  The kernel walks an 8 x 8 grid of 512 x 512 tiles. At each point it forms the tile of pair losses from the point's
  image rows, text rows and labels, sums it, and adds the sum to a one-entry accumulator that is reset at the start
  of each row of tiles and written out at its end; the program then sums the eight row totals and divides by 2^24.
  The reference forms the whole 4096 x 4096 loss matrix, sums it and divides by 2^24. On the extended reals every
  operation is exact, rounding to a shorter float format is the identity, and addition is commutative and
  associative, so the total over all pairs may be taken tile by tile: both results are the same extended real
  (`Cert.PairLoss.meanLoss`). No finiteness of the inputs is used.

  The modules: `Spec` (the mathematics, and the sum over pairs taken tile by tile), `Payload` (the body's arithmetic
  read at an index), `Pieces` (what each control case of the body leaves), `Tiles` (the accumulator after each grid
  point, by induction, and the output array), `Result` (the operations after the region), `RefValue` (the reference).
-/
import proofs.«124694_j69415261438629_2_alg».proof.Defs
import proofs.«124694_j69415261438629_2_alg».proof.Proof.Gen.Kernel
import proofs.«124694_j69415261438629_2_alg».proof.Proof.Gen.Kernel.Skeleton
import proofs.«124694_j69415261438629_2_alg».proof.Proof.Gen.Kernel.Launch
import proofs.«124694_j69415261438629_2_alg».proof.Proof.Gen.Kernel.Points
import proofs.«124694_j69415261438629_2_alg».proof.Proof.Gen.Kernel.Frame
import proofs.«124694_j69415261438629_2_alg».proof.Proof.Gen.KernelIdeal
import proofs.«124694_j69415261438629_2_alg».proof.Proof.Gen.KernelIdeal.Skeleton
import proofs.«124694_j69415261438629_2_alg».proof.Proof.Gen.KernelIdeal.Launch
import proofs.«124694_j69415261438629_2_alg».proof.Proof.Gen.KernelIdeal.Points
import proofs.«124694_j69415261438629_2_alg».proof.Proof.Gen.KernelIdeal.Frame
import proofs.«124694_j69415261438629_2_alg».proof.Proof.Gen.ReferenceIdeal
import proofs.«124694_j69415261438629_2_alg».proof.Proof.Gen.ReferenceIdeal.Run
import proofs.«124694_j69415261438629_2_alg».proof.Proof.Gen.ReferenceIdeal.Read
import proofs.«124694_j69415261438629_2_alg».proof.Proof.Gen.Pre_finite_inputs
import proofs.«124694_j69415261438629_2_alg».proof.Proof.Result
import proofs.«124694_j69415261438629_2_alg».proof.Proof.RefValue
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- Both programs end with the mean loss of the same three arrays in their result. -/
theorem algebraic : Cert.algebraic_KernelIdeal_ReferenceIdeal := by
  intro m ρ m' ρ' _ hagree
  refine ⟨fun c => fun _ => Cert.PairLoss.meanLoss (Cert.KernelIdeal.Tiles.img m c) (Cert.KernelIdeal.Tiles.txt m c)
    (Cert.KernelIdeal.Tiles.lab m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq]
  funext i
  rw [Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
